-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  reducesTo_S_S_d : S_.ReducesTo [] S_

variable [Facts]

def fn {F : FTy → Type} [FloatOps F] (main_arg0 : FVec F S8192x64 .f32) (main_arg1 : FVec F S8192x64 .f32) (main_arg2 : FVec F S_ .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  let main_v9 : FVec F S_ .f32 := Host.absf main_arg2
  let main_cst_2 : FVec F S_ .f32 := constant S_ .f32 0x7F800000#32
  let main_v10 : IVec S_ 1 := cmpf .olt main_v9 main_cst_2
  let main_c_3 : IVec S_ 1 := constantI S_ 1 1#1
  let main_v11 : IVec S_ 1 := (fun x v => Host.reduce IntOp.andi x v reducesTo_S_S_d h_S_) main_v10 main_c_3
  let main_v12 : IVec S_ 1 := andi main_v8 main_v11
  main_v12
-- ==== Kernel.lean ====
abbrev S8192x64 : Shape := ⟨2, ![8192, 64]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S1024x64 : Shape := ⟨2, ![1024, 64]⟩
abbrev S2048x64 : Shape := ⟨2, ![2048, 64]⟩
abbrev S1024x1 : Shape := ⟨2, ![1024, 1]⟩
abbrev S1x2048 : Shape := ⟨2, ![1, 2048]⟩
abbrev S1024x2048 : Shape := ⟨2, ![1024, 2048]⟩

abbrev nBuf : Space → Nat
  | .hbm => 22
  | .vmem => 10
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S_, .f32⟩
  | .hbm, ⟨3, _⟩ => ⟨S8192x64, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x64, .f32⟩
  | .hbm, ⟨8, _⟩ => ⟨S_, .f32⟩
  | .hbm, ⟨9, _⟩ => ⟨S8192, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192, .f32⟩
  | .hbm, ⟨15, _⟩ => ⟨S8192, .f32⟩
  | .hbm, ⟨16, _⟩ => ⟨S1x8192, .f32⟩
  | .hbm, ⟨17, _⟩ => ⟨S_, .f32⟩
  | .hbm, ⟨18, _⟩ => ⟨S_, .f32⟩
  | .hbm, ⟨19, _⟩ => ⟨S8192x64, .f32⟩
  | .hbm, ⟨20, _⟩ => ⟨S8192x64, .f32⟩
  | .hbm, ⟨21, _⟩ => ⟨S8192x8192, .f32⟩
  | .local _ .vmem, ⟨0, _⟩ => ⟨S1024x64, .f32⟩
  | .local _ .vmem, ⟨1, _⟩ => ⟨S1024x64, .f32⟩
  | .local _ .vmem, ⟨2, _⟩ => ⟨S2048x64, .f32⟩
  | .local _ .vmem, ⟨3, _⟩ => ⟨S2048x64, .f32⟩
  | .local _ .vmem, ⟨4, _⟩ => ⟨S1024x1, .f32⟩
  | .local _ .vmem, ⟨5, _⟩ => ⟨S1024x1, .f32⟩
  | .local _ .vmem, ⟨6, _⟩ => ⟨S1x2048, .f32⟩
  | .local _ .vmem, ⟨7, _⟩ => ⟨S1x2048, .f32⟩
  | .local _ .vmem, ⟨8, _⟩ => ⟨S1024x2048, .f32⟩
  | .local _ .vmem, ⟨9, _⟩ => ⟨S1024x2048, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  reducesTo_S8192x64_S8192_d1 : S8192x64.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S_S8192 : S_.BroadcastsInDim S8192 (![] : Fin 0 → Fin S8192.rank)
  bcast_S8192_S1x8192_1 : S8192.BroadcastsInDim S1x8192 (![1] : Fin 1 → Fin S1x8192.rank)
  bcast_S_S8192x64 : S_.BroadcastsInDim S8192x64 (![] : Fin 0 → Fin S8192x64.rank)
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S2048x64_S2048x64_0_0 : ∀ a, (![0, 0] : Fin 2 → Nat) a + S2048x64.size a ≤ S2048x64.size a
  h_S2048x64 : 0 < S2048x64.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1024x1_S1024x2048 : S1024x1.Broadcasts S1024x2048
  broadcasts_S1x2048_S1024x2048 : S1x2048.Broadcasts S1024x2048
  inb_S1024x2048_S1024x2048_0_0 : ∀ a, (![0, 0] : Fin 2 → Nat) a + S1024x2048.size a ≤ S1024x2048.size a
  h_S1024x2048 : 0 < S1024x2048.numel
  dot_S1024x64_S2048x64_S1024x2048_1_1_0_0_n_n_wf : DotDims.WF S1024x64 S2048x64 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S8192x64.size a
  hwx0_0 : ∀ i : grid0.Coords, EltTy.bits .f32 = 32 ∨ (Rect.block (s := S8192x64) S1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S8192x64.size a
  hwx0_1 : ∀ i : grid0.Coords, EltTy.bits .f32 = 32 ∨ (Rect.block (s := S8192x64) S2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x8192.size a
  hwx0_3 : ∀ i : grid0.Coords, EltTy.bits .f32 = 32 ∨ (Rect.block (s := S1x8192) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x2048.size a ≤ S8192x8192.size a
  hwx0_4 : ∀ i : grid0.Coords, EltTy.bits .f32 = 32 ∨ (Rect.block (s := S8192x8192) S1024x2048.size (cc0_transform_4 i) (hinb0_4 i)).WholeWords (EltTy.packing .f32)

variable [Facts₀]

def dot_S1024x64_S2048x64_S1024x2048_1_1_0_0_n_n : DotDims S1024x64 S2048x64 S1024x2048 where
  lhsContracting := [1]
  rhsContracting := [1]
  lhsNonContracting := [0]
  rhsNonContracting := [0]
  lhsBatch := []
  rhsBatch := []
  wf := dot_S1024x64_S2048x64_S1024x2048_1_1_0_0_n_n_wf

abbrev win0_0 : Pipeline.Window sig grid0 :=
  Pipeline.Window.ofSpec (Memref.whole main_v14) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1024x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x64 : Shape := ⟨2, ![8192, 64]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩

abbrev nBuf : Space → Nat
  | .hbm => 23
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S_, .f32⟩
  | .hbm, ⟨3, _⟩ => ⟨S8192x64, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x64, .f32⟩
  | .hbm, ⟨8, _⟩ => ⟨S_, .f32⟩
  | .hbm, ⟨9, _⟩ => ⟨S8192, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S8192x8192, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  reducesTo_S8192x64_S8192_d1 : S8192x64.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x64_S8192x64_S8192x8192_1_1_0_0_n_n_wf : DotDims.WF S8192x64 S8192x64 S8192x8192 [1] [1] [0] [0] [] []

variable [Facts₀]

def dot_S8192x64_S8192x64_S8192x8192_1_1_0_0_n_n : DotDims S8192x64 S8192x64 S8192x8192 where
  lhsContracting := [1]
  rhsContracting := [1]
  lhsNonContracting := [0]
  rhsNonContracting := [0]
  lhsBatch := []
  rhsBatch := []
  wf := dot_S8192x64_S8192x64_S8192x8192_1_1_0_0_n_n_wf

class Facts : Prop extends Facts₀ where

variable [Facts]
-- ==== Proof.LibRealImage.lean ====
/-
  GENERAL LEMMAS: real numbers inside the extended reals, under finite sums and maxima.
  • `coe_sum`: the image of a finite sum of reals is the sum of the images;
  • `coe_max`: the image of a maximum of two reals is the maximum of the images;
  • `sum_mul_real`: a finite sum of reals times a real is the sum of the products, computed on the extended reals
    (the distributive law, which fails there at infinities, holds when every term and the factor are real).
-/
import Mathlib.Data.EReal.Basic
import Mathlib.Data.EReal.Operations
import Mathlib.Algebra.BigOperators.Fin

open scoped BigOperators

namespace Cert.Lib.RealImage

/-- The image of a finite sum of reals is the sum of the images. -/
theorem coe_sum {ι : Type*} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

/-- The image of a maximum of reals is the maximum of the images. -/
theorem coe_max (a b : ℝ) : ((max a b : ℝ) : EReal) = max (a : EReal) (b : EReal) :=
  EReal.coe_strictMono.monotone.map_max

/-- A sum of reals times a real is the sum of the products, on the extended reals. -/
theorem sum_mul_real {ι : Type*} (s : Finset ι) (h : ι → ℝ) (e : ℝ) :
    (∑ i ∈ s, (h i : EReal)) * (e : EReal) = ∑ i ∈ s, (h i : EReal) * (e : EReal) := by
  rw [← coe_sum, ← EReal.coe_mul, Finset.sum_mul, coe_sum]
  exact Finset.sum_congr rfl fun i _ => EReal.coe_mul _ _

end Cert.Lib.RealImage
-- ==== Proof.RbfLaw.lean ====
/-
  The algebra of the radial-basis exponent.

  For two rows x, y of reals (indexed by any finite type), a real width g and a real factor t, the exponent can be
  assembled in two ways. Expanded: the inner product of the scaled row x·(t·g) with y, plus (−g)·|x|², plus (−g)·|y|².
  Collected: (−g)·((|x|² + |y|²) − t·⟨x, y⟩). Over the reals the two agree by distributing −g over the bracket and t·g
  over the inner product. On the extended reals distribution fails at the infinities, so the statement is made for
  images of reals: every product and sum below is then the image of the corresponding real one, and the equation
  is the real one. Each squared norm is written with the zero it is accumulated from, as both computations do.
-/
import proofs.«124783_j65481071406993_2_alg».proof.Proof.LibRealImage

open scoped BigOperators

namespace Cert.Rbf

variable {ι : Type*} [Fintype ι]

/-- The expanded exponent equals the collected one, for real rows, a real width and a real factor. -/
theorem exponent_expand (x y : ι → ℝ) (g t : ℝ) :
    ((∑ k, ((x k : EReal) * ((t : EReal) * (g : EReal))) * (y k : EReal))
        + (-(g : EReal)) * ((0 : EReal) + ∑ k, (x k : EReal) * (x k : EReal)))
      + (-(g : EReal)) * ((0 : EReal) + ∑ k, (y k : EReal) * (y k : EReal))
    = (-(g : EReal)) * ((((0 : EReal) + ∑ k, (x k : EReal) * (x k : EReal))
          + ((0 : EReal) + ∑ k, (y k : EReal) * (y k : EReal)))
        - (t : EReal) * ∑ k, (x k : EReal) * (y k : EReal)) := by
  simp only [zero_add, ← EReal.coe_mul, ← Cert.Lib.RealImage.coe_sum, ← EReal.coe_neg, ← EReal.coe_add,
    ← EReal.coe_sub]
  rw [EReal.coe_eq_coe_iff]
  have h : ∑ k, x k * (t * g) * y k = (t * g) * ∑ k, x k * y k := by
    rw [Finset.mul_sum]
    exact Finset.sum_congr rfl fun k _ => by ring
  rw [h]
  ring

end Cert.Rbf
-- ==== Proof.RbfSpec.lean ====
/-
  The radial-basis matrix exp(−g·|x_p − y_q|²) of two point sets x, y (8192 points of 64 coordinates each) and a scalar
  width g, entry by entry on the extended reals, in the three arrangements that meet in this certificate.

  * `assembled A B C D`: entry (p, q) is exp((⟨A_p, B_q⟩ + C_p) + D_q) for a matrix pair A, B, a column C and a row D —
    an inner product of rows plus a per-row and a per-column term.
  * `expanded x y g`: the same with A = x·(2·g), B = y, C_p = (−g)·|x_p|² and D_q = (−g)·|y_q|² written out.
  * `collected x y g`: entry (p, q) is exp((−g)·((|x_p|² + |y_q|²) − 2·⟨x_p, y_q⟩)), the squared distance expanded by
    the binomial formula and multiplied by −g once.

  `expanded` and `collected` agree wherever every entry of x, y and the width are real numbers: there the exponents are
  images of one real number (the law of the exponent). At an infinite entry they need not agree, which is why the hypotheses are there.
-/
import Idealize.ShloMosaic.PureOps.Ideal
import Idealize.ShloMosaic.Lib.ValueIdx
import proofs.«124783_j65481071406993_2_alg».proof.Proof.RbfLaw

noncomputable section

open scoped BigOperators

namespace Cert.Rbf

open Idealize.ShloMosaic Idealize.ShloMosaic.ValueIdx

/-- The single-precision word of 2.0 denotes the real number 2. -/
theorem two_real : Ideal.ofBits .f32 0x40000000#32 = ((2 : ℝ) : EReal) := by
  simp [Ideal.ofBits, Ideal.ieee, -EReal.coe_mul]; norm_num

/-- Entry (p, q) from a matrix pair, a column and a row: exp((⟨A_p, B_q⟩ + C_p) + D_q). -/
def assembled (A B : (⟨2, ![8192, 64]⟩ : Shape).Idx → EReal) (C : (⟨2, ![8192, 1]⟩ : Shape).Idx → EReal)
    (D : (⟨2, ![1, 8192]⟩ : Shape).Idx → EReal) : (⟨2, ![8192, 8192]⟩ : Shape).Idx → EReal := fun i =>
  Ideal.exp ((∑ k : Fin 64, A (ix2 (i 0) k) * B (ix2 (i 1) k) + C (ix2 (i 0) (0 : Fin 1))) + D (ix2 (0 : Fin 1) (i 1)))

/-- The assembled form at an entry given by its coordinates. -/
theorem assembled_ix2 (A B : (⟨2, ![8192, 64]⟩ : Shape).Idx → EReal) (C : (⟨2, ![8192, 1]⟩ : Shape).Idx → EReal)
    (D : (⟨2, ![1, 8192]⟩ : Shape).Idx → EReal) (p q : Fin 8192) :
    assembled A B C D (ix2 p q)
      = Ideal.exp ((∑ k : Fin 64, A (ix2 p k) * B (ix2 q k) + C (ix2 p (0 : Fin 1))) + D (ix2 (0 : Fin 1) q)) := rfl

/-- Entry (p, q) with the scaled rows and the two norm terms written out. -/
def expandedAt (x y : (⟨2, ![8192, 64]⟩ : Shape).Idx → EReal) (g : EReal) (p q : Fin 8192) : EReal :=
  Ideal.exp (((∑ k : Fin 64, (x (ix2 p k) * (Ideal.ofBits .f32 0x40000000#32 * g)) * y (ix2 q k))
      + (-g) * (0 + ∑ k : Fin 64, x (ix2 p k) * x (ix2 p k)))
    + (-g) * (0 + ∑ k : Fin 64, y (ix2 q k) * y (ix2 q k)))

/-- Entry (p, q) as exp of −g times the expanded squared distance. -/
def collectedAt (x y : (⟨2, ![8192, 64]⟩ : Shape).Idx → EReal) (g : EReal) (p q : Fin 8192) : EReal :=
  Ideal.exp ((-g) * (((0 + ∑ k : Fin 64, x (ix2 p k) * x (ix2 p k)) + (0 + ∑ k : Fin 64, y (ix2 q k) * y (ix2 q k)))
    - Ideal.ofBits .f32 0x40000000#32 * ∑ k : Fin 64, x (ix2 p k) * y (ix2 q k)))

/-- On real data the two arrangements of an entry agree: the exponents are the two sides of the law of the exponent. -/
theorem expandedAt_eq_collectedAt (x y : (⟨2, ![8192, 64]⟩ : Shape).Idx → EReal) (g : EReal)
    (hx : ∀ i, ∃ r : ℝ, x i = (r : EReal)) (hy : ∀ i, ∃ r : ℝ, y i = (r : EReal)) (hg : ∃ r : ℝ, g = (r : EReal))
    (p q : Fin 8192) : expandedAt x y g p q = collectedAt x y g p q := by
  choose xr hxr using hx
  choose yr hyr using hy
  obtain ⟨gr, rfl⟩ := hg
  unfold expandedAt collectedAt
  simp only [hxr, hyr, two_real]
  exact congrArg Ideal.exp (exponent_expand (fun k => xr (ix2 p k)) (fun k => yr (ix2 q k)) gr 2)

/-- The whole matrix, expanded arrangement; the width is a rank-0 array read at its one index. -/
def expanded (x y : (⟨2, ![8192, 64]⟩ : Shape).Idx → EReal) (g : (⟨0, ![]⟩ : Shape).Idx → EReal) :
    (⟨2, ![8192, 8192]⟩ : Shape).Idx → EReal := fun i => expandedAt x y (g ix0) (i 0) (i 1)

/-- The expanded matrix at an entry given by its coordinates. -/
theorem expanded_ix2 (x y : (⟨2, ![8192, 64]⟩ : Shape).Idx → EReal) (g : (⟨0, ![]⟩ : Shape).Idx → EReal) (p q : Fin 8192) :
    expanded x y g (ix2 p q) = expandedAt x y (g ix0) p q := rfl

/-- The whole matrix, collected arrangement. -/
def collected (x y : (⟨2, ![8192, 64]⟩ : Shape).Idx → EReal) (g : (⟨0, ![]⟩ : Shape).Idx → EReal) :
    (⟨2, ![8192, 8192]⟩ : Shape).Idx → EReal := fun i => collectedAt x y (g ix0) (i 0) (i 1)

/-- On real data the two matrices are one. -/
theorem expanded_eq_collected (x y : (⟨2, ![8192, 64]⟩ : Shape).Idx → EReal) (g : (⟨0, ![]⟩ : Shape).Idx → EReal)
    (hx : ∀ i, ∃ r : ℝ, x i = (r : EReal)) (hy : ∀ i, ∃ r : ℝ, y i = (r : EReal)) (hg : ∃ r : ℝ, g ix0 = (r : EReal)) :
    expanded x y g = collected x y g :=
  funext fun i => expandedAt_eq_collectedAt x y (g ix0) hx hy hg (i 0) (i 1)

end Cert.Rbf

end
-- ==== Proof.LibRhsTDot.lean ====
/-
  A matrix against the transpose of another, read at an entry, on the extended reals.

  For dimension numbers that contract the SECOND axis of both operands (an M×K matrix against an N×K matrix, no batch
  axis — the product l · rᵀ), the contraction index has a single coordinate, and entry (a, b) of the product is the sum
  over k : Fin K of left (a, k) · right (b, k): row a of the left operand against row b of the right one. A
  `tpu.matmul` of that form into the zero accumulator is that sum, the zero word added on the left changing nothing.

  The statements take any dimension record `D` together with a proof that it is the record of that form; for a printed
  record that proof is `rfl`.
-/
import Idealize.ShloMosaic.PureOps.Ideal.Laws
import Idealize.ShloMosaic.Lib.ValueIdx

noncomputable section

namespace Idealize.ShloMosaic.RhsTDot

open Idealize.ShloMosaic Idealize.ShloMosaic.ValueIdx

variable {M K N : Nat}

/-- The left operand is read on its row axis at the entry's row. -/
theorem lhs_row (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

/-- The right operand is read on its row axis at the entry's column. -/
theorem rhs_row (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

/-- The contraction of such a product, re-indexed by the one contracted coordinate. -/
theorem sum_eq (D : DotDims ⟨2, ![M, K]⟩ ⟨2, ![N, K]⟩ ⟨2, ![M, N]⟩) (hD : D = DotDims.transposedRhs M K N)
    (l : (⟨2, ![M, K]⟩ : Shape).Idx → EReal) (r : (⟨2, ![N, K]⟩ : Shape).Idx → EReal) (j : (⟨2, ![M, N]⟩ : Shape).Idx) :
    ∑ q : D.contr.Idx, l (D.lhsIdx j q) * r (D.rhsIdx j q) = ∑ k : Fin K, l (ix2 (j 0) k) * r (ix2 (j 1) k) := by
  subst hD
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx j ((contrEquiv1 (DotDims.transposedRhs M K N) K rfl rfl).symm k) = ix2 (j 0) k :=
    funext fun a => Fin.ext (by
      match a with
      | ⟨0, _⟩ => exact lhs_row _ _
      | ⟨1, _⟩ => exact ((DotDims.transposedRhs M K N).lhsIdx_val_of_single rfl _ _).trans hk)
  have er : (DotDims.transposedRhs M K N).rhsIdx j ((contrEquiv1 (DotDims.transposedRhs M K N) K rfl rfl).symm k) = ix2 (j 1) k :=
    funext fun a => Fin.ext (by
      match a with
      | ⟨0, _⟩ => exact rhs_row _ _
      | ⟨1, _⟩ => exact ((DotDims.transposedRhs M K N).rhsIdx_val_of_single rfl _ _).trans hk)
  exact congrArg₂ (fun x y => l x * r y) el er

/-- A `tpu.matmul` of such a product into the zero accumulator at an entry. -/
theorem matmul_zero_apply {φ₁ φ₂ : FTy} (D : DotDims ⟨2, ![M, K]⟩ ⟨2, ![N, K]⟩ ⟨2, ![M, N]⟩) (hD : D = DotDims.transposedRhs M K N)
    (prec : Option ContractPrecision) (l : FVec Ideal ⟨2, ![M, K]⟩ φ₁) (r : FVec Ideal ⟨2, ![N, K]⟩ φ₂)
    (j : (⟨2, ![M, N]⟩ : Shape).Idx) :
    matmul D prec l r (constant (F := Ideal) ⟨2, ![M, N]⟩ .f32 0x00000000#32) j
      = ∑ k : Fin K, l (ix2 (j 0) k) * r (ix2 (j 1) k) := by
  simp only [matmul]
  rw [Ideal.matmul_constant_zero_apply]
  exact sum_eq D hD l r j

/-- The same at an entry given by its coordinates: row `a` of the left operand against row `b` of the right one. -/
theorem matmul_zero_ix2 {φ₁ φ₂ : FTy} (D : DotDims ⟨2, ![M, K]⟩ ⟨2, ![N, K]⟩ ⟨2, ![M, N]⟩) (hD : D = DotDims.transposedRhs M K N)
    (prec : Option ContractPrecision) (l : FVec Ideal ⟨2, ![M, K]⟩ φ₁) (r : FVec Ideal ⟨2, ![N, K]⟩ φ₂)
    (a : Fin M) (b : Fin N) :
    matmul D prec l r (constant (F := Ideal) ⟨2, ![M, N]⟩ .f32 0x00000000#32) (ix2 a b)
      = ∑ k : Fin K, l (ix2 a k) * r (ix2 b k) :=
  matmul_zero_apply D hD prec l r (ix2 a b)

end Idealize.ShloMosaic.RhsTDot

end
-- ==== Proof.LibKeepdims.lean ====
/-
  GENERAL LEMMAS: a rank-2 array summed along its second axis with the sum kept as a column — what
  `sum(x, axis=-1, keepdims=True)` becomes in a vector program — read at an index given by coordinates.
  • `multiReduction_add_axis1_apply`: the lane sum of an `[a, b]` array from the zero word, at `i`, is the sum of row `i`;
  • `shapeCast_a_a1_apply`: an `[a]` array cast to the column `[a, 1]` reads, at `(i, u)`, the operand at `i`;
  • `broadcastTo_a1_ab_apply`: a column `[a, 1]` broadcast to `[a, b]` reads, at `(p, c)`, the column at `(p, 0)`.
  (The column transposed to a row is the library's `transpose_ix2_apply`; a row broadcast down the rows its
  `broadcastTo_1b_ab_apply`.)
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Idealize.ShloMosaic.ValueIdx

open Idealize.ShloMosaic

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane sum of an `[a, b]` array of extended reals, accumulated from the zero word: at `i` it is the sum of row `i`. -/
theorem multiReduction_add_axis1_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext c
  match c with
  | ⟨0, _⟩ => exact Fin.ext rfl
  | ⟨1, _⟩ => exact Fin.ext rfl

end Idealize.ShloMosaic.ValueIdx

end
-- ==== Proof.Payload.lean ====
/-
  The kernel body's one stored value, read at an entry of the block.

  The body forms, from a 1024×64 block x0, a 2048×64 block x1, a 1024×1 column x2 and a 1×2048 row x3, the 1024×2048 block
  exp((x0·x1ᵀ + x2) + x3): the product of x0 with the transpose of x1 into a zero accumulator, the column broadcast along
  the columns, the row broadcast down the rows, two additions and an exponential, all entrywise but the product.
  At entry (p, q) this is exp((∑ₖ x0(p,k)·x1(q,k) + x2(p,0)) + x3(0,q)): the product read as a sum over the contracted
  coordinate, each broadcast read at the source entry it repeats, the casts between equal shapes the identity.
-/
import proofs.«124783_j65481071406993_2_alg».proof.Proof.Gen.KernelIdeal.Skeleton
import proofs.«124783_j65481071406993_2_alg».proof.Proof.LibRhsTDot
import proofs.«124783_j65481071406993_2_alg».proof.Proof.LibKeepdims
import Idealize.ShloMosaic.Lib.ValueLayout
import Idealize.ShloMosaic.Lib.Pipeline.Value

noncomputable section

open scoped BigOperators

namespace Cert.KernelIdeal.Body

open Cert.KernelIdeal Cert.KernelIdeal.Gen Idealize.ShloMosaic Idealize.ShloMosaic.ValueIdx

/-- The stored block at entry (p, q). -/
theorem payload_apply (x0 : FVec Ideal S1024x64 .f32) (x1 : FVec Ideal S2048x64 .f32) (x2 : FVec Ideal S1024x1 .f32)
    (x3 : FVec Ideal S1x2048 .f32) (p : Fin 1024) (q : Fin 2048) :
    k0_pay1 (F := Ideal) x0 x1 x2 x3 (ix2 p q)
      = Ideal.exp ((∑ k : Fin 64, x0 (ix2 p k) * x1 (ix2 q k) + x2 (ix2 p (0 : Fin 1))) + x3 (ix2 (0 : Fin 1) q)) := by
  unfold k0_pay1
  simp only [shapeCast_self]
  show Ideal.exp ((_ + _) + _) = _
  refine congrArg Ideal.exp (congrArg₂ (· + ·) (congrArg₂ (· + ·) ?_ ?_) ?_)
  · exact RhsTDot.matmul_zero_ix2 _ rfl _ x0 x1 p q
  · exact broadcastTo_a1_ab_apply x2 _ p q
  · exact broadcastTo_1b_ab_apply x3 _ p q

end Cert.KernelIdeal.Body

end
-- ==== Proof.Blocks.lean ====
/-
  From blocks to the array: after the run the result array is the assembled form of the four arrays the region found.

  The grid has 8 × 4 points. Point (a, b) is handed rows 1024a … 1024a+1023 of the scaled points and of the column,
  rows 2048b … 2048b+2047 of the second point set, columns 2048b … 2048b+2047 of the row, and writes back the
  1024 × 2048 block at block position (a, b) of the result. Entry (p, q) of what it writes is the body's stored value at
  (p, q), which is the assembled form at the array entry (1024a + p, 2048b + q), because each input block read at its
  entry is its array read at the shifted entry. The 32 blocks tile the 8192 × 8192 result — entry (r, s) lies in the
  block of point (r / 1024, s / 2048) — so the whole array ends as the assembled form.
-/
import proofs.«124783_j65481071406993_2_alg».proof.Proof.Gen.KernelIdeal.Value
import proofs.«124783_j65481071406993_2_alg».proof.Proof.Payload
import proofs.«124783_j65481071406993_2_alg».proof.Proof.RbfSpec
import Idealize.ShloMosaic.Lib.Pipeline.Value
import Idealize.ShloMosaic.Lib.Tactic

noncomputable section

open scoped BigOperators

namespace Cert.KernelIdeal.Tiles

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The block positions of the five windows at a grid point, against the result's block position (a, b): the scaled points
    and the column sit at (a, 0), the second point set at (b, 0), the row at (0, b); decided over the 32 points. -/
theorem block_positions : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = win0_4.index t (0 : Fin 2) ∧ win0_2.index t (1 : Fin 2) = 0
    ∧ win0_3.index t (0 : Fin 2) = 0 ∧ win0_3.index t (1 : Fin 2) = win0_4.index t (1 : Fin 2)
    ∧ win0_4.index t (0 : Fin 2) ≤ 7 ∧ win0_4.index t (1 : Fin 2) ≤ 3 :=
  (by decide +kernel : ∀ t : Fin grid0.N, _)

/-- Every block position (a, b) of the result is some point's. -/
theorem block_onto : ∀ (a : Fin 8) (b : Fin 4), ∃ t : Fin cfg0.N, win0_4.index t = ![a.val, b.val] :=
  (by decide +kernel : ∀ (a : Fin 8) (b : Fin 4), ∃ t : Fin grid0.N, win0_4.index t = ![a.val, b.val])

/-- The scaled points' block at a point, at (p, k), is the array at (1024a + p, k). -/
theorem scaled_block (c : Dev nD) (t : Fin cfg0.N) (p : Fin 1024) (k : Fin 64) (i : S8192x64.Idx)
    (hi0 : (i 0).val = win0_4.index t (0 : Fin 2) * 1024 + p.val) (hi1 : (i 1).val = k.val) :
    (iblk m c 0 t : Vec Ideal S1024x64 .f32) (ix2 p k) = (V m c main_v14 : S8192x64.Idx → EReal) i := by
  obtain ⟨e0, e1, -⟩ := block_positions t
  unfold iblk
  rw [View.read_apply]
  show (V m c main_v14 : S8192x64.Idx → EReal) _ = _
  refine congrArg (V m c main_v14 : S8192x64.Idx → EReal) (funext fun a => Fin.ext ?_)
  match a with
  | ⟨0, _⟩ => show win0_0.index t (0 : Fin 2) * 1024 + 1 * p.val = (i 0).val; omega
  | ⟨1, _⟩ => show win0_0.index t (1 : Fin 2) * 64 + 1 * k.val = (i 1).val; omega

/-- The second point set's block at a point, at (q, k), is the array at (2048b + q, k). -/
theorem second_block (c : Dev nD) (t : Fin cfg0.N) (q : Fin 2048) (k : Fin 64) (i : S8192x64.Idx)
    (hi0 : (i 0).val = win0_4.index t (1 : Fin 2) * 2048 + q.val) (hi1 : (i 1).val = k.val) :
    (iblk m c 1 t : Vec Ideal S2048x64 .f32) (ix2 q k) = (V m c main_arg1 : S8192x64.Idx → EReal) i := by
  obtain ⟨-, -, e0, e1, -⟩ := block_positions t
  unfold iblk
  rw [View.read_apply]
  show (V m c main_arg1 : S8192x64.Idx → EReal) _ = _
  refine congrArg (V m c main_arg1 : S8192x64.Idx → EReal) (funext fun a => Fin.ext ?_)
  match a with
  | ⟨0, _⟩ => show win0_1.index t (0 : Fin 2) * 2048 + 1 * q.val = (i 0).val; omega
  | ⟨1, _⟩ => show win0_1.index t (1 : Fin 2) * 64 + 1 * k.val = (i 1).val; omega

/-- The column's block at a point, at (p, 0), is the array at (1024a + p, 0). -/
theorem column_block (c : Dev nD) (t : Fin cfg0.N) (p : Fin 1024) (i : S8192x1.Idx)
    (hi0 : (i 0).val = win0_4.index t (0 : Fin 2) * 1024 + p.val) :
    (iblk m c 2 t : Vec Ideal S1024x1 .f32) (ix2 p (0 : Fin 1)) = (V m c main_v7 : S8192x1.Idx → EReal) i := by
  obtain ⟨-, -, -, -, e0, e1, -⟩ := block_positions t
  have hlt : (i 1).val < 1 := (i 1).isLt
  have hi1 : (i 1).val = 0 := by omega
  unfold iblk
  rw [View.read_apply]
  show (V m c main_v7 : S8192x1.Idx → EReal) _ = _
  refine congrArg (V m c main_v7 : S8192x1.Idx → EReal) (funext fun a => Fin.ext ?_)
  match a with
  | ⟨0, _⟩ => show win0_2.index t (0 : Fin 2) * 1024 + 1 * p.val = (i 0).val; omega
  | ⟨1, _⟩ => show win0_2.index t (1 : Fin 2) * 1 + 1 * 0 = (i 1).val; omega

/-- The row's block at a point, at (0, q), is the array at (0, 2048b + q). -/
theorem row_block (c : Dev nD) (t : Fin cfg0.N) (q : Fin 2048) (i : S1x8192.Idx)
    (hi1 : (i 1).val = win0_4.index t (1 : Fin 2) * 2048 + q.val) :
    (iblk m c 3 t : Vec Ideal S1x2048 .f32) (ix2 (0 : Fin 1) q) = (V m c main_v11 : S1x8192.Idx → EReal) i := by
  obtain ⟨-, -, -, -, -, -, e0, e1, -⟩ := block_positions t
  have hlt : (i 0).val < 1 := (i 0).isLt
  have hi0 : (i 0).val = 0 := by omega
  unfold iblk
  rw [View.read_apply]
  show (V m c main_v11 : S1x8192.Idx → EReal) _ = _
  refine congrArg (V m c main_v11 : S1x8192.Idx → EReal) (funext fun a => Fin.ext ?_)
  match a with
  | ⟨0, _⟩ => show win0_3.index t (0 : Fin 2) * 1 + 1 * 0 = (i 0).val; omega
  | ⟨1, _⟩ => show win0_3.index t (1 : Fin 2) * 2048 + 1 * q.val = (i 1).val; omega

/-- What a point writes back is its block of the assembled form of the four arrays the region found. -/
theorem flushed_eq (c : Dev nD) (t : Fin cfg0.N) :
    (dats m 0 c).flushed 4 t = ((cfg0.win 4).blk t).view.read (Elt Ideal)
      (Cert.Rbf.assembled (V m c main_v14) (V m c main_arg1) (V m c main_v7) (V m c main_v11)) := by
  rw [Value.flushed4]
  unfold out0_4
  rw [View.canon_unit_zero zero_offsets]
  simp only [View.ld_unit_zero (S := S1024x64) zero_offsets, View.ld_unit_zero (S := S2048x64) zero_offsets,
    View.ld_unit_zero (S := S1024x1) zero_offsets, View.ld_unit_zero (S := S1x2048) zero_offsets]
  funext j
  obtain ⟨p, q, rfl⟩ : ∃ (p : Fin 1024) (q : Fin 2048), j = ix2 p q := ⟨j 0, j 1, eq_ix2 (n0 := 1024) (n1 := 2048) j⟩
  show k0_pay1 (F := Ideal) (iblk m c 0 t) (iblk m c 1 t) (iblk m c 2 t) (iblk m c 3 t) (ix2 p q)
    = Cert.Rbf.assembled (V m c main_v14) (V m c main_arg1) (V m c main_v7) (V m c main_v11)
        (((cfg0.win 4).blk t).view.emb (ix2 p q))
  refine (Body.payload_apply (iblk m c 0 t) (iblk m c 1 t) (iblk m c 2 t) (iblk m c 3 t) p q).trans ?_
  unfold Cert.Rbf.assembled
  refine congrArg Ideal.exp (congrArg₂ (· + ·) (congrArg₂ (· + ·)
    (Finset.sum_congr rfl fun k _ => congrArg₂ (· * ·) ?_ ?_) ?_) ?_)
  · exact scaled_block m c t p k _ (by show win0_4.index t (0 : Fin 2) * 1024 + 1 * p.val = _; omega) rfl
  · exact second_block m c t q k _ (by show win0_4.index t (1 : Fin 2) * 2048 + 1 * q.val = _; omega) rfl
  · exact column_block m c t p _ (by show win0_4.index t (0 : Fin 2) * 1024 + 1 * p.val = _; omega)
  · exact row_block m c t q _ (by show win0_4.index t (1 : Fin 2) * 2048 + 1 * q.val = _; omega)

/-- An entry of the result is in a point's block iff each coordinate is in the block's range on its axis. -/
theorem mem_block (t : Fin cfg0.N) (i : S8192x8192.Idx) :
    i ∈ ((cfg0.win 4).blk t).view.set ↔ ∀ a : Fin 2, win0_4.index t a * S1024x2048.size a ≤ (i a).val
      ∧ (i a).val < win0_4.index t a * S1024x2048.size a + S1024x2048.size a := by
  show i ∈ ((View.whole main_v15).slice (win0_4.rect t)).set ↔ _
  rw [View.set_slice_whole, Rect.mem_set_unit]
  exact Iff.rfl

/-- Every entry (r, s) of the result is in the block of the point at block position (r / 1024, s / 2048). -/
theorem covered (i : S8192x8192.Idx) :
    ∃ t : Fin cfg0.N, (cfg0.win 4).flush t = true ∧ i ∈ ((cfg0.win 4).blk t).view.set := by
  have hi0 : (i 0).val < 8192 := (i 0).isLt
  have hi1 : (i 1).val < 8192 := (i 1).isLt
  obtain ⟨t, ht⟩ := block_onto ⟨(i 0).val / 1024, by omega⟩ ⟨(i 1).val / 2048, by omega⟩
  have q0 : win0_4.index t (0 : Fin 2) = (i 0).val / 1024 := congrFun ht 0
  have q1 : win0_4.index t (1 : Fin 2) = (i 1).val / 2048 := congrFun ht 1
  refine ⟨t, flush0_4 t, ?_⟩
  rw [mem_block]
  intro a
  match a with
  | ⟨0, _⟩ =>
    show win0_4.index t (0 : Fin 2) * 1024 ≤ (i 0).val ∧ (i 0).val < win0_4.index t (0 : Fin 2) * 1024 + 1024
    omega
  | ⟨1, _⟩ =>
    show win0_4.index t (1 : Fin 2) * 2048 ≤ (i 1).val ∧ (i 1).val < win0_4.index t (1 : Fin 2) * 2048 + 2048
    omega

/-- The result array after the run is the assembled form of the four arrays the region found. -/
theorem final (c : Dev nD) : (dats m 0 c).arrAt 4 cfg0.N
    = Cert.Rbf.assembled (V m c main_v14) (V m c main_arg1) (V m c main_v7) (V m c main_v11) :=
  (dats m 0 c).arrAt_eq_of_cover 4 _ (fun t _ => flushed_eq m c t) covered

end Cert.KernelIdeal.Tiles

end
-- ==== Proof.HostSide.lean ====
/-
  What the region finds in its windows' arrays, and what the kernel's result therefore is.

  Before the region the program prepares three arrays from the points x, y and the width g:
    the scaled points  x·(2·g)                       (window 0),
    the column         (−g)·|x_p|², p = 0 … 8191      (window 2),
    the row            (−g)·|y_q|², q = 0 … 8191      (window 3),
  and hands y over as it is (window 1). Each squared norm is a sum over the 64 coordinates accumulated from zero.
  Read at an entry these are x(p,k)·(2·g), (−g)·(0 + ∑ₖ x(p,k)²) and (−g)·(0 + ∑ₖ y(q,k)²); substituted into the
  assembled form exp((⟨A_p, B_q⟩ + C_p) + D_q) they give the expanded arrangement of the radial-basis matrix.
-/
import proofs.«124783_j65481071406993_2_alg».proof.Proof.Gen.KernelIdeal.Frame
import proofs.«124783_j65481071406993_2_alg».proof.Proof.RbfSpec
import Idealize.ShloMosaic.Lib.StableHlo.Run
import Idealize.ShloMosaic.Lib.IdealHost
import Idealize.ShloMosaic.Lib.Pipeline.Value

noncomputable section

open scoped BigOperators

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx

/-- The scaled points x·(2·g), as the host operations form them. -/
def scaledPts (x : FVec Ideal S8192x64 .f32) (g : FVec Ideal S_ .f32) : FVec Ideal S8192x64 .f32 :=
  mulf x (broadcastInDim S8192x64 ![] bcast_S_S8192x64 (mulf (constant (F := Ideal) S_ .f32 0x40000000#32) g))

/-- The column (−g)·|x_p|². -/
def negNormCol (x : FVec Ideal S8192x64 .f32) (g : FVec Ideal S_ .f32) : FVec Ideal S8192x1 .f32 :=
  mulf (broadcastInDim S8192x1 ![] bcast_S_S8192x1 (Host.negf g))
    (broadcastInDim S8192x1 ![0] bcast_S8192_S8192x1_0
      (Host.reduceAdd (mulf x x) (constant (F := Ideal) S_ .f32 0x00000000#32) reducesTo_S8192x64_S8192_d1 h_S_))

/-- The row (−g)·|y_q|². -/
def negNormRow (y : FVec Ideal S8192x64 .f32) (g : FVec Ideal S_ .f32) : FVec Ideal S1x8192 .f32 :=
  broadcastInDim S1x8192 ![1] bcast_S8192_S1x8192_1
    (mulf (broadcastInDim S8192 ![] bcast_S_S8192 (Host.negf g))
      (Host.reduceAdd (mulf y y) (constant (F := Ideal) S_ .f32 0x00000000#32) reducesTo_S8192x64_S8192_d1 h_S_))

variable (m : (ℓ : Loc nD τ sig) → Buf (Elt Ideal) ℓ)

/-- Window 0's array at region entry is the scaled points. -/
theorem V_scaled (c : Dev nD) : (V m c main_v14 : S8192x64.Idx → EReal)
    = scaledPts (m ((c : Thread nD τ).loc main_arg0)) (m ((c : Thread nD τ).loc main_arg2)) := by
  dsimp only [Gen.V, Gen.hostOps0]; after_results; rfl

/-- Window 2's array at region entry is the column of scaled squared norms of x. -/
theorem V_col (c : Dev nD) : (V m c main_v7 : S8192x1.Idx → EReal)
    = negNormCol (m ((c : Thread nD τ).loc main_arg0)) (m ((c : Thread nD τ).loc main_arg2)) := by
  dsimp only [Gen.V, Gen.hostOps0]; after_results; rfl

/-- Window 3's array at region entry is the row of scaled squared norms of y. -/
theorem V_row (c : Dev nD) : (V m c main_v11 : S1x8192.Idx → EReal)
    = negNormRow (m ((c : Thread nD τ).loc main_arg1)) (m ((c : Thread nD τ).loc main_arg2)) := by
  dsimp only [Gen.V, Gen.hostOps0]; after_results; rfl

/-- A squared norm accumulated from the zero word: at point p it is 0 plus the sum of the squares of row p. -/
theorem sumSq_apply (x : FVec Ideal S8192x64 .f32) (p : Fin 8192) :
    Host.reduceAdd (mulf x x) (constant (F := Ideal) S_ .f32 0x00000000#32) reducesTo_S8192x64_S8192_d1 h_S_ (ix1 p)
      = 0 + ∑ k : Fin 64, x (ix2 p k) * x (ix2 p k) := by
  rw [hostReduceAdd_apply, Ideal.hostReduceAdd_single reducesTo_S8192x64_S8192_d1 (by decide)]
  refine congrArg₂ (· + ·) Ideal.ofBits_zero_f32 (Finset.sum_congr rfl fun k _ => ?_)
  have e : (by decide : S8192x64.Reduces [1] S8192).lift (ix1 p) k = ix2 p k :=
    funext fun a => Fin.ext (by match a with | ⟨0, _⟩ => rfl | ⟨1, _⟩ => rfl)
  exact congrArg (fun z => x z * x z) e

/-- The scaled points at (p, k). -/
theorem scaledPts_apply (x : FVec Ideal S8192x64 .f32) (g : FVec Ideal S_ .f32) (p : Fin 8192) (k : Fin 64) :
    scaledPts x g (ix2 p k) = x (ix2 p k) * (Ideal.ofBits .f32 0x40000000#32 * g ix0) := by
  unfold scaledPts
  show x (ix2 p k) * (broadcastInDim S8192x64 (![] : Fin 0 → Fin S8192x64.rank) bcast_S_S8192x64
      (mulf (constant (F := Ideal) S_ .f32 0x40000000#32) g) (ix2 p k)) = _
  rw [broadcastInDim_scalar_apply]
  rfl

/-- The column at (p, 0). -/
theorem negNormCol_apply (x : FVec Ideal S8192x64 .f32) (g : FVec Ideal S_ .f32) (p : Fin 8192) :
    negNormCol x g (ix2 p (0 : Fin 1)) = (-(g ix0)) * (0 + ∑ k : Fin 64, x (ix2 p k) * x (ix2 p k)) := by
  unfold negNormCol
  show (broadcastInDim S8192x1 (![] : Fin 0 → Fin S8192x1.rank) bcast_S_S8192x1 (Host.negf g) (ix2 p (0 : Fin 1)))
      * (broadcastInDim S8192x1 (![0] : Fin 1 → Fin S8192x1.rank) bcast_S8192_S8192x1_0
          (Host.reduceAdd (mulf x x) (constant (F := Ideal) S_ .f32 0x00000000#32) reducesTo_S8192x64_S8192_d1 h_S_)
          (ix2 p (0 : Fin 1))) = _
  rw [broadcastInDim_scalar_apply,
    broadcastInDim_apply _ bcast_S8192_S8192x1_0 _ (ix2 p (0 : Fin 1)) (ix1 p) (fun a => match a with
      | ⟨0, _⟩ => by show p.val = if (8192 : Nat) = 1 then 0 else p.val; rw [if_neg (by decide)]),
    sumSq_apply]
  rfl

/-- The row at (0, q). -/
theorem negNormRow_apply (y : FVec Ideal S8192x64 .f32) (g : FVec Ideal S_ .f32) (q : Fin 8192) :
    negNormRow y g (ix2 (0 : Fin 1) q) = (-(g ix0)) * (0 + ∑ k : Fin 64, y (ix2 q k) * y (ix2 q k)) := by
  unfold negNormRow
  rw [broadcastInDim_apply _ bcast_S8192_S1x8192_1 _ (ix2 (0 : Fin 1) q) (ix1 q) (fun a => match a with
      | ⟨0, _⟩ => by show q.val = if (8192 : Nat) = 1 then 0 else q.val; rw [if_neg (by decide)])]
  show (broadcastInDim S8192 (![] : Fin 0 → Fin S8192.rank) bcast_S_S8192 (Host.negf g) (ix1 q)) * _ = _
  rw [broadcastInDim_scalar_apply, sumSq_apply]
  rfl

/-- The assembled form of the four arrays the region finds is the expanded arrangement of the radial-basis matrix
    of the launch arguments. -/
theorem assembled_entry (c : Dev nD) :
    Cert.Rbf.assembled (V m c main_v14) (V m c main_arg1) (V m c main_v7) (V m c main_v11)
      = Cert.Rbf.expanded (m ((c : Thread nD τ).loc main_arg0)) (m ((c : Thread nD τ).loc main_arg1))
          (m ((c : Thread nD τ).loc main_arg2)) := by
  rw [V_scaled, V_col, V_row, V_main_arg1]
  funext i
  obtain ⟨p, q, rfl⟩ : ∃ (p q : Fin 8192), i = ix2 p q := ⟨i 0, i 1, eq_ix2 (n0 := 8192) (n1 := 8192) i⟩
  rw [Cert.Rbf.assembled_ix2, Cert.Rbf.expanded_ix2]
  unfold Cert.Rbf.expandedAt
  simp only [scaledPts_apply, negNormCol_apply, negNormRow_apply]

end Cert.KernelIdeal.Entry

end
-- ==== Proof.RefSide.lean ====
/-
  The reference program's result is the collected arrangement of the radial-basis matrix.

  The reference forms the two squared norms (each a sum over the 64 coordinates from zero), lays them out as a column and a
  row and adds them over the whole 8192 × 8192 index set, subtracts twice the matrix of inner products ⟨x_p, y_q⟩,
  multiplies by −g and exponentiates. Read at entry (p, q), stage by stage, that is
  exp((−g)·((0 + ∑ₖ x(p,k)²) + (0 + ∑ₖ y(q,k)²) − 2·∑ₖ x(p,k)·y(q,k))): every layout stage reads its operand at the
  entry it repeats, so the index functions composed along the way reduce to (p, k) and (q, k).
-/
import proofs.«124783_j65481071406993_2_alg».proof.Proof.Gen.ReferenceIdeal.Read
import proofs.«124783_j65481071406993_2_alg».proof.Proof.RbfSpec

noncomputable section

open scoped BigOperators

namespace Cert.ReferenceIdeal.Spec

open Cert.ReferenceIdeal Cert.ReferenceIdeal.Gen Cert.ReferenceIdeal.Read Idealize.ShloMosaic Idealize.ShloMosaic.ValueIdx

/-- The last stage of the reference, as a whole array, is the collected arrangement. -/
theorem reference_eq (x0 x1 : (⟨S8192x64, .f32⟩ : BufTy).Contents (Elt Ideal)) (g : (⟨S_, .f32⟩ : BufTy).Contents (Elt Ideal)) :
    val_main_v16 (F := Ideal) x0 x1 g = Cert.Rbf.collected x0 x1 g := by
  funext i
  obtain ⟨p, q, rfl⟩ : ∃ (p q : Fin 8192), i = ix2 p q := ⟨i 0, i 1, eq_ix2 (n0 := 8192) (n1 := 8192) i⟩
  have eL : ∀ k : Fin 64, lidx_main_v6 (ix2 p q) k = ix2 p k := fun k =>
    funext fun a => Fin.ext (by match a with | ⟨0, _⟩ => rfl | ⟨1, _⟩ => rfl)
  have eR : ∀ k : Fin 64, ridx_main_v6 (ix2 p q) k = ix2 q k := fun k =>
    funext fun a => Fin.ext (by match a with | ⟨0, _⟩ => rfl | ⟨1, _⟩ => rfl)
  have eX : ∀ k : Fin 64, idx_main_v1 (idx_main_v2 (idx_main_v7 (ix2 p q))) k = ix2 p k := fun k =>
    funext fun a => Fin.ext (by match a with | ⟨0, _⟩ => rfl | ⟨1, _⟩ => rfl)
  have eY : ∀ k : Fin 64, idx_main_v4 (idx_main_v5 (idx_main_v8 (ix2 p q))) k = ix2 q k := fun k =>
    funext fun a => Fin.ext (by match a with | ⟨0, _⟩ => rfl | ⟨1, _⟩ => rfl)
  show _ = Cert.Rbf.collectedAt x0 x1 (g ix0) p q
  unfold Cert.Rbf.collectedAt
  rw [val_main_v16_apply, val_main_v15_apply, val_main_v14_apply, val_main_v13_apply, val_main_v12_apply,
    val_main_v9_apply, val_main_v7_apply, val_main_v2_apply, val_main_v1_apply, val_main_v8_apply, val_main_v5_apply,
    val_main_v4_apply, val_main_v11_apply, val_main_v10_apply, val_main_cst_1_apply, val_main_v6_apply]
  simp only [val_main_v0_apply, val_main_v3_apply, val_main_cst_apply, val_main_cst_0_apply, eL, eR, eX, eY,
    Ideal.hostUnary_exp_def, Ideal.mulf_def, Ideal.addf_def, Ideal.subf_def, Ideal.hostNegf_def, Ideal.negf_def,
    Ideal.ofBits_def, Ideal.ofBits_zero_f32]

end Cert.ReferenceIdeal.Spec

end
-- ==== Proof.LibFiniteEntry.lean ====
/-
  GENERAL LEMMAS: the finiteness test of one entry, read back on the extended reals.
  A precondition "every input is finite" tests each entry x by comparing its absolute value max(x, −x) strictly below the
  single-precision word of +∞.
  • `inf_word`: that word denotes the top element ⊤;
  • `real_of_abs_lt`: an extended real that passes the test is the image of a real number (at ⊤ and at ⊥ the absolute
    value is ⊤ itself, which is not below ⊤).
-/
import Idealize.ShloMosaic.PureOps.Ideal

noncomputable section

namespace Cert.Lib.FiniteEntry

open Idealize.ShloMosaic

/-- The single-precision word of +∞ denotes the top of the extended reals. -/
theorem inf_word : Ideal.ofBits .f32 0x7F800000#32 = (⊤ : EReal) := by
  simp [Ideal.ofBits, Ideal.ieee]

/-- An extended real whose absolute value compares strictly below the word of +∞ is a real number. -/
theorem real_of_abs_lt (x : EReal) (h : Ideal.cmp .olt (max x (-x)) (Ideal.ofBits .f32 0x7F800000#32) = 1#1) :
    ∃ r : ℝ, x = (r : EReal) := by
  rw [inf_word] at h
  induction x using EReal.rec with
  | bot => simp [Ideal.cmp] at h
  | coe r => exact ⟨r, rfl⟩
  | top => simp [Ideal.cmp] at h

end Cert.Lib.FiniteEntry

end
-- ==== Proof.Finite.lean ====
/-
  What the precondition says: every entry of the two point sets, and the width, is a real number.

  The precondition is the conjunction of three tests, one per input: the absolute value of every entry compared below +∞,
  the comparisons of an array reduced by "and". An extended real whose absolute value max(x, −x) is strictly below +∞ is
  neither +∞ nor −∞ (for either of those the maximum is +∞ itself), so it is the image of a real number.
-/
import proofs.«124783_j65481071406993_2_alg».proof.Proof.Gen.Pre_finite_inputs
import proofs.«124783_j65481071406993_2_alg».proof.Proof.LibFiniteEntry
import Idealize.ShloMosaic.Lib.ReduceAll
import Idealize.ShloMosaic.Lib.ValueIdx
import Idealize.ShloMosaic.PureOps.Ideal

noncomputable section

namespace Cert.Pre_finite_inputs.Reals

open Cert.Pre_finite_inputs Cert.Pre_finite_inputs.Gen Idealize.ShloMosaic Idealize.ShloMosaic.ValueIdx
open Cert.Lib.FiniteEntry (real_of_abs_lt)

/-- The rank-0 shape has one index. -/
instance : Subsingleton S_.Idx := ⟨fun a b => funext fun d => d.elim0⟩

/-- From the precondition: all entries of both point sets and the width are real. -/
theorem real_of_pre (x y : FVec Ideal S8192x64 .f32) (g : FVec Ideal S_ .f32)
    (h : fn (F := Ideal) x y g = fun _ => 1#1) :
    (∀ i, ∃ r : ℝ, x i = (r : EReal)) ∧ (∀ i, ∃ r : ℝ, y i = (r : EReal)) ∧ ∃ r : ℝ, g ix0 = (r : EReal) := by
  have h0 := congrFun h ix0
  dsimp only [fn] at h0
  obtain ⟨h01, hg⟩ := IntOp.andi_eq_one.1 h0
  obtain ⟨hx, hy⟩ := IntOp.andi_eq_one.1 h01
  refine ⟨fun i => ?_, fun i => ?_, ?_⟩
  · exact real_of_abs_lt (x i) (Host.reduce_andi_all _ _ _ _ _ hx i)
  · exact real_of_abs_lt (y i) (Host.reduce_andi_all _ _ _ _ _ hy i)
  · exact real_of_abs_lt (g ix0) (Host.reduce_andi_all _ _ _ _ _ hg ix0)

end Cert.Pre_finite_inputs.Reals

end
-- ==== Proof.lean ====
/-
  The radial-basis matrix of two point sets: a tiled kernel against the plain formula, equal on the extended reals.

  Both programs take points x, y (8192 points of 64 coordinates each) and a width g, and return the 8192 × 8192 matrix
  with entries exp(−g·|x_p − y_q|²), the squared distance expanded as |x_p|² + |y_q|² − 2·⟨x_p, y_q⟩.

  The reference computes exactly that: entry (p, q) is exp((−g)·((|x_p|² + |y_q|²) − 2·⟨x_p, y_q⟩)).
  The kernel distributes −g first. It prepares x·(2·g), the column (−g)·|x_p|² and the row (−g)·|y_q|², and on each of
  8 × 4 tiles of 1024 × 2048 entries forms exp((⟨(x·2g)_p, y_q⟩ + (−g)|x_p|²) + (−g)|y_q|²).

  The two exponents are the two sides of one distributive identity. On the extended reals that identity needs every
  quantity to be a real number, which is what the precondition provides: every entry of x, y and the width compares
  below +∞ in absolute value. The proof is in four parts:
    the tiles of the kernel's result are blocks of one whole-array function of the arrays the region finds (Blocks),
    those arrays are the three prepared ones and y, so that function is the expanded arrangement (HostSide),
    the reference's last stage is the collected arrangement (RefSide),
    on real data the two arrangements are one matrix (RbfSpec over RbfLaw, with the reality of the data from Finite).
  The three frames are the generated ones (the reference's its generated run with the result dropped), and the
  idealized kernel is the kernel's own text, so nothing is owed for the idealization.
-/
import proofs.«124783_j65481071406993_2_alg».proof.Defs
import proofs.«124783_j65481071406993_2_alg».proof.Proof.Gen.Kernel
import proofs.«124783_j65481071406993_2_alg».proof.Proof.Gen.Kernel.Skeleton
import proofs.«124783_j65481071406993_2_alg».proof.Proof.Gen.Kernel.Launch
import proofs.«124783_j65481071406993_2_alg».proof.Proof.Gen.Kernel.Points
import proofs.«124783_j65481071406993_2_alg».proof.Proof.Gen.Kernel.Frame
import proofs.«124783_j65481071406993_2_alg».proof.Proof.Gen.KernelIdeal
import proofs.«124783_j65481071406993_2_alg».proof.Proof.Gen.KernelIdeal.Skeleton
import proofs.«124783_j65481071406993_2_alg».proof.Proof.Gen.KernelIdeal.Launch
import proofs.«124783_j65481071406993_2_alg».proof.Proof.Gen.KernelIdeal.Points
import proofs.«124783_j65481071406993_2_alg».proof.Proof.Gen.KernelIdeal.Frame
import proofs.«124783_j65481071406993_2_alg».proof.Proof.Gen.ReferenceIdeal
import proofs.«124783_j65481071406993_2_alg».proof.Proof.Gen.Pre_finite_inputs
import proofs.«124783_j65481071406993_2_alg».proof.Proof.Gen.KernelIdeal.Value
import proofs.«124783_j65481071406993_2_alg».proof.Proof.Gen.ReferenceIdeal.Run
import proofs.«124783_j65481071406993_2_alg».proof.Proof.Gen.ReferenceIdeal.Read
import proofs.«124783_j65481071406993_2_alg».proof.Proof.RbfSpec
import proofs.«124783_j65481071406993_2_alg».proof.Proof.Blocks
import proofs.«124783_j65481071406993_2_alg».proof.Proof.HostSide
import proofs.«124783_j65481071406993_2_alg».proof.Proof.RefSide
import proofs.«124783_j65481071406993_2_alg».proof.Proof.Finite
import Idealize.ShloMosaic.Adequacy
import Idealize.ShloMosaic.Init

noncomputable section

namespace Cert.Proof

open Idealize.ShloMosaic Idealize.ShloMosaic.TcCoe Idealize.SL.Sem

/-- The idealized kernel's run: the result array ends as the expanded arrangement of the radial-basis matrix of the
    launch arguments (the tiles are blocks of the assembled form, and the assembled form of the prepared arrays is the
    expanded arrangement), the arguments unchanged. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal)))
      ⟨m, fun _ => 0, ρ⟩ fun r => ∀ c : Dev Cert.KernelIdeal.nD,
        r.2.mem ((c.tc : Thread Cert.KernelIdeal.nD Cert.KernelIdeal.τ).loc Cert.KernelIdeal.main_v15)
          = Cert.Rbf.expanded (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
              (m ((c.tc : Thread Cert.KernelIdeal.nD Cert.KernelIdeal.τ).loc Cert.KernelIdeal.main_arg2))
        ∧ r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2)
            = m ((c.tc : Thread Cert.KernelIdeal.nD Cert.KernelIdeal.τ).loc Cert.KernelIdeal.main_arg2) :=
  (θ_run Cert.KernelIdeal.defs _ _).mono
    (fun r h c => ⟨(h c).1.trans ((Cert.KernelIdeal.Tiles.final m c).trans (Cert.KernelIdeal.Entry.assembled_entry m c)),
      (h c).2⟩)
    (Cert.KernelIdeal.Value.run_blocks m ρ)

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text read on the extended reals: no rewrite to account for. -/
theorem preserves : Cert.preserves_Kernel_KernelIdeal := trivial

/-- From memories agreeing on x, y and g, all real by the precondition, both programs end with the collected
    arrangement of the radial-basis matrix: the reference by its own stages, the kernel because its expanded arrangement
    is the collected one on real data. -/
theorem algebraic : Cert.algebraic_KernelIdeal_ReferenceIdeal := by
  intro m ρ m' ρ' hpre hagree
  refine ⟨fun c => Cert.Rbf.collected
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun r h c => ⟨(h c).1.trans ?_, (h c).2⟩) (kernel_run m ρ)
    obtain ⟨hx, hy, hg⟩ := Cert.Pre_finite_inputs.Reals.real_of_pre _ _ _ (hpre c)
    exact Cert.Rbf.expanded_eq_collected _ _ _ hx hy hg
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v16_eq, Cert.ReferenceIdeal.Spec.reference_eq, (hagree c).1, (hagree c).2.1,
      (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
